-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x64 : Shape := ⟨3, ![32768, 2, 64]⟩
abbrev S_ : Shape := ⟨0, ![]⟩

class Facts : Prop where
  bcast_S_S32768x2x64 : S_.BroadcastsInDim S32768x2x64 (![] : Fin 0 → Fin S32768x2x64.rank)
  reducesTo_S32768x2x64_S_d0_1_2 : S32768x2x64.ReducesTo [0, 1, 2] S_
  h_S_ : 0 < S_.numel

variable [Facts]

def fn {F : FTy → Type} [FloatOps F] (main_arg0 : FVec F S32768x2x64 .f32) : IVec S_ 1 :=
  let main_v0 : FVec F S32768x2x64 .f32 := Host.absf main_arg0
  let main_cst : FVec F S_ .f32 := constant S_ .f32 0x7F800000#32
  let main_v1 : FVec F S32768x2x64 .f32 := broadcastInDim S32768x2x64 ![] bcast_S_S32768x2x64 main_cst
  let main_v2 : IVec S32768x2x64 1 := cmpf .olt main_v0 main_v1
  let main_c : IVec S_ 1 := constantI S_ 1 1#1
  let main_v3 : IVec S_ 1 := (fun x v => Host.reduce IntOp.andi x v reducesTo_S32768x2x64_S_d0_1_2 h_S_) main_v2 main_c
  main_v3
-- ==== Kernel.lean ====
abbrev S32768x2x64 : Shape := ⟨3, ![32768, 2, 64]⟩
abbrev S32768x4096 : Shape := ⟨2, ![32768, 4096]⟩
abbrev S1024x2x64 : Shape := ⟨3, ![1024, 2, 64]⟩
abbrev S1024x4096 : Shape := ⟨2, ![1024, 4096]⟩
abbrev S1024x1x64 : Shape := ⟨3, ![1024, 1, 64]⟩
abbrev S1024x64 : Shape := ⟨2, ![1024, 64]⟩
abbrev S1024x1 : Shape := ⟨2, ![1024, 1]⟩
abbrev S1024x128 : Shape := ⟨2, ![1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S32768x2x64, .f32⟩
  | .hbm, ⟨1, _⟩ => ⟨S32768x4096, .f32⟩
  | .local _ .vmem, ⟨0, _⟩ => ⟨S1024x2x64, .f32⟩
  | .local _ .vmem, ⟨1, _⟩ => ⟨S1024x2x64, .f32⟩
  | .local _ .vmem, ⟨2, _⟩ => ⟨S1024x4096, .f32⟩
  | .local _ .vmem, ⟨3, _⟩ => ⟨S1024x4096, .f32⟩
  | _, _ => ⟨S32768x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x2x64_S1024x1x64_0_0_0 : ∀ a, (![0, 0, 0] : Fin 3 → Nat) a + S1024x1x64.size a ≤ S1024x2x64.size a
  h_S1024x1x64 : 0 < S1024x1x64.numel
  shapeCasts_S1024x1x64_S1024x64 : S1024x1x64.ShapeCasts S1024x64
  inb_S1024x2x64_S1024x1x64_0_1_0 : ∀ a, (![0, 1, 0] : Fin 3 → Nat) a + S1024x1x64.size a ≤ S1024x2x64.size a
  slices_S1024x64_o0_0_S1024x1 : S1024x64.Slices ![0, 0] S1024x1
  broadcasts_S1024x1_S1024x64 : S1024x1.Broadcasts S1024x64
  slices_S1024x64_o0_1_S1024x1 : S1024x64.Slices ![0, 1] S1024x1
  concatenates_S1024x64_S1024x64_S1024x128_d1 : Shape.Concatenates [S1024x64, S1024x64] S1024x128 1
  inb_S1024x4096_S1024x128_0_0 : ∀ a, (![0, 0] : Fin 2 → Nat) a + S1024x128.size a ≤ S1024x4096.size a
  h_S1024x128 : 0 < S1024x128.numel
  slices_S1024x64_o0_2_S1024x1 : S1024x64.Slices ![0, 2] S1024x1
  slices_S1024x64_o0_3_S1024x1 : S1024x64.Slices ![0, 3] S1024x1
  inb_S1024x4096_S1024x128_0_128 : ∀ a, (![0, 128] : Fin 2 → Nat) a + S1024x128.size a ≤ S1024x4096.size a
  slices_S1024x64_o0_4_S1024x1 : S1024x64.Slices ![0, 4] S1024x1
  slices_S1024x64_o0_5_S1024x1 : S1024x64.Slices ![0, 5] S1024x1
  inb_S1024x4096_S1024x128_0_256 : ∀ a, (![0, 256] : Fin 2 → Nat) a + S1024x128.size a ≤ S1024x4096.size a
  slices_S1024x64_o0_6_S1024x1 : S1024x64.Slices ![0, 6] S1024x1
  slices_S1024x64_o0_7_S1024x1 : S1024x64.Slices ![0, 7] S1024x1
  inb_S1024x4096_S1024x128_0_384 : ∀ a, (![0, 384] : Fin 2 → Nat) a + S1024x128.size a ≤ S1024x4096.size a
  slices_S1024x64_o0_8_S1024x1 : S1024x64.Slices ![0, 8] S1024x1
  slices_S1024x64_o0_9_S1024x1 : S1024x64.Slices ![0, 9] S1024x1
  inb_S1024x4096_S1024x128_0_512 : ∀ a, (![0, 512] : Fin 2 → Nat) a + S1024x128.size a ≤ S1024x4096.size a
  slices_S1024x64_o0_10_S1024x1 : S1024x64.Slices ![0, 10] S1024x1
  slices_S1024x64_o0_11_S1024x1 : S1024x64.Slices ![0, 11] S1024x1
  inb_S1024x4096_S1024x128_0_640 : ∀ a, (![0, 640] : Fin 2 → Nat) a + S1024x128.size a ≤ S1024x4096.size a
  slices_S1024x64_o0_12_S1024x1 : S1024x64.Slices ![0, 12] S1024x1
  slices_S1024x64_o0_13_S1024x1 : S1024x64.Slices ![0, 13] S1024x1
  inb_S1024x4096_S1024x128_0_768 : ∀ a, (![0, 768] : Fin 2 → Nat) a + S1024x128.size a ≤ S1024x4096.size a
  slices_S1024x64_o0_14_S1024x1 : S1024x64.Slices ![0, 14] S1024x1
  slices_S1024x64_o0_15_S1024x1 : S1024x64.Slices ![0, 15] S1024x1
  inb_S1024x4096_S1024x128_0_896 : ∀ a, (![0, 896] : Fin 2 → Nat) a + S1024x128.size a ≤ S1024x4096.size a
  slices_S1024x64_o0_16_S1024x1 : S1024x64.Slices ![0, 16] S1024x1
  slices_S1024x64_o0_17_S1024x1 : S1024x64.Slices ![0, 17] S1024x1
  inb_S1024x4096_S1024x128_0_1024 : ∀ a, (![0, 1024] : Fin 2 → Nat) a + S1024x128.size a ≤ S1024x4096.size a
  slices_S1024x64_o0_18_S1024x1 : S1024x64.Slices ![0, 18] S1024x1
  slices_S1024x64_o0_19_S1024x1 : S1024x64.Slices ![0, 19] S1024x1
  inb_S1024x4096_S1024x128_0_1152 : ∀ a, (![0, 1152] : Fin 2 → Nat) a + S1024x128.size a ≤ S1024x4096.size a
  slices_S1024x64_o0_20_S1024x1 : S1024x64.Slices ![0, 20] S1024x1
  slices_S1024x64_o0_21_S1024x1 : S1024x64.Slices ![0, 21] S1024x1
  inb_S1024x4096_S1024x128_0_1280 : ∀ a, (![0, 1280] : Fin 2 → Nat) a + S1024x128.size a ≤ S1024x4096.size a
  slices_S1024x64_o0_22_S1024x1 : S1024x64.Slices ![0, 22] S1024x1
  slices_S1024x64_o0_23_S1024x1 : S1024x64.Slices ![0, 23] S1024x1
  inb_S1024x4096_S1024x128_0_1408 : ∀ a, (![0, 1408] : Fin 2 → Nat) a + S1024x128.size a ≤ S1024x4096.size a
  slices_S1024x64_o0_24_S1024x1 : S1024x64.Slices ![0, 24] S1024x1
  slices_S1024x64_o0_25_S1024x1 : S1024x64.Slices ![0, 25] S1024x1
  inb_S1024x4096_S1024x128_0_1536 : ∀ a, (![0, 1536] : Fin 2 → Nat) a + S1024x128.size a ≤ S1024x4096.size a
  slices_S1024x64_o0_26_S1024x1 : S1024x64.Slices ![0, 26] S1024x1
  slices_S1024x64_o0_27_S1024x1 : S1024x64.Slices ![0, 27] S1024x1
  inb_S1024x4096_S1024x128_0_1664 : ∀ a, (![0, 1664] : Fin 2 → Nat) a + S1024x128.size a ≤ S1024x4096.size a
  slices_S1024x64_o0_28_S1024x1 : S1024x64.Slices ![0, 28] S1024x1
  slices_S1024x64_o0_29_S1024x1 : S1024x64.Slices ![0, 29] S1024x1
  inb_S1024x4096_S1024x128_0_1792 : ∀ a, (![0, 1792] : Fin 2 → Nat) a + S1024x128.size a ≤ S1024x4096.size a
  slices_S1024x64_o0_30_S1024x1 : S1024x64.Slices ![0, 30] S1024x1
  slices_S1024x64_o0_31_S1024x1 : S1024x64.Slices ![0, 31] S1024x1
  inb_S1024x4096_S1024x128_0_1920 : ∀ a, (![0, 1920] : Fin 2 → Nat) a + S1024x128.size a ≤ S1024x4096.size a
  slices_S1024x64_o0_32_S1024x1 : S1024x64.Slices ![0, 32] S1024x1
  slices_S1024x64_o0_33_S1024x1 : S1024x64.Slices ![0, 33] S1024x1
  inb_S1024x4096_S1024x128_0_2048 : ∀ a, (![0, 2048] : Fin 2 → Nat) a + S1024x128.size a ≤ S1024x4096.size a
  slices_S1024x64_o0_34_S1024x1 : S1024x64.Slices ![0, 34] S1024x1
  slices_S1024x64_o0_35_S1024x1 : S1024x64.Slices ![0, 35] S1024x1
  inb_S1024x4096_S1024x128_0_2176 : ∀ a, (![0, 2176] : Fin 2 → Nat) a + S1024x128.size a ≤ S1024x4096.size a
  slices_S1024x64_o0_36_S1024x1 : S1024x64.Slices ![0, 36] S1024x1
  slices_S1024x64_o0_37_S1024x1 : S1024x64.Slices ![0, 37] S1024x1
  inb_S1024x4096_S1024x128_0_2304 : ∀ a, (![0, 2304] : Fin 2 → Nat) a + S1024x128.size a ≤ S1024x4096.size a
  slices_S1024x64_o0_38_S1024x1 : S1024x64.Slices ![0, 38] S1024x1
  slices_S1024x64_o0_39_S1024x1 : S1024x64.Slices ![0, 39] S1024x1
  inb_S1024x4096_S1024x128_0_2432 : ∀ a, (![0, 2432] : Fin 2 → Nat) a + S1024x128.size a ≤ S1024x4096.size a
  slices_S1024x64_o0_40_S1024x1 : S1024x64.Slices ![0, 40] S1024x1
  slices_S1024x64_o0_41_S1024x1 : S1024x64.Slices ![0, 41] S1024x1
  inb_S1024x4096_S1024x128_0_2560 : ∀ a, (![0, 2560] : Fin 2 → Nat) a + S1024x128.size a ≤ S1024x4096.size a
  slices_S1024x64_o0_42_S1024x1 : S1024x64.Slices ![0, 42] S1024x1
  slices_S1024x64_o0_43_S1024x1 : S1024x64.Slices ![0, 43] S1024x1
  inb_S1024x4096_S1024x128_0_2688 : ∀ a, (![0, 2688] : Fin 2 → Nat) a + S1024x128.size a ≤ S1024x4096.size a
  slices_S1024x64_o0_44_S1024x1 : S1024x64.Slices ![0, 44] S1024x1
  slices_S1024x64_o0_45_S1024x1 : S1024x64.Slices ![0, 45] S1024x1
  inb_S1024x4096_S1024x128_0_2816 : ∀ a, (![0, 2816] : Fin 2 → Nat) a + S1024x128.size a ≤ S1024x4096.size a
  slices_S1024x64_o0_46_S1024x1 : S1024x64.Slices ![0, 46] S1024x1
  slices_S1024x64_o0_47_S1024x1 : S1024x64.Slices ![0, 47] S1024x1
  inb_S1024x4096_S1024x128_0_2944 : ∀ a, (![0, 2944] : Fin 2 → Nat) a + S1024x128.size a ≤ S1024x4096.size a
  slices_S1024x64_o0_48_S1024x1 : S1024x64.Slices ![0, 48] S1024x1
  slices_S1024x64_o0_49_S1024x1 : S1024x64.Slices ![0, 49] S1024x1
  inb_S1024x4096_S1024x128_0_3072 : ∀ a, (![0, 3072] : Fin 2 → Nat) a + S1024x128.size a ≤ S1024x4096.size a
  slices_S1024x64_o0_50_S1024x1 : S1024x64.Slices ![0, 50] S1024x1
  slices_S1024x64_o0_51_S1024x1 : S1024x64.Slices ![0, 51] S1024x1
  inb_S1024x4096_S1024x128_0_3200 : ∀ a, (![0, 3200] : Fin 2 → Nat) a + S1024x128.size a ≤ S1024x4096.size a
  slices_S1024x64_o0_52_S1024x1 : S1024x64.Slices ![0, 52] S1024x1
  slices_S1024x64_o0_53_S1024x1 : S1024x64.Slices ![0, 53] S1024x1
  inb_S1024x4096_S1024x128_0_3328 : ∀ a, (![0, 3328] : Fin 2 → Nat) a + S1024x128.size a ≤ S1024x4096.size a
  slices_S1024x64_o0_54_S1024x1 : S1024x64.Slices ![0, 54] S1024x1
  slices_S1024x64_o0_55_S1024x1 : S1024x64.Slices ![0, 55] S1024x1
  inb_S1024x4096_S1024x128_0_3456 : ∀ a, (![0, 3456] : Fin 2 → Nat) a + S1024x128.size a ≤ S1024x4096.size a
  slices_S1024x64_o0_56_S1024x1 : S1024x64.Slices ![0, 56] S1024x1
  slices_S1024x64_o0_57_S1024x1 : S1024x64.Slices ![0, 57] S1024x1
  inb_S1024x4096_S1024x128_0_3584 : ∀ a, (![0, 3584] : Fin 2 → Nat) a + S1024x128.size a ≤ S1024x4096.size a
  slices_S1024x64_o0_58_S1024x1 : S1024x64.Slices ![0, 58] S1024x1
  slices_S1024x64_o0_59_S1024x1 : S1024x64.Slices ![0, 59] S1024x1
  inb_S1024x4096_S1024x128_0_3712 : ∀ a, (![0, 3712] : Fin 2 → Nat) a + S1024x128.size a ≤ S1024x4096.size a
  slices_S1024x64_o0_60_S1024x1 : S1024x64.Slices ![0, 60] S1024x1
  slices_S1024x64_o0_61_S1024x1 : S1024x64.Slices ![0, 61] S1024x1
  inb_S1024x4096_S1024x128_0_3840 : ∀ a, (![0, 3840] : Fin 2 → Nat) a + S1024x128.size a ≤ S1024x4096.size a
  slices_S1024x64_o0_62_S1024x1 : S1024x64.Slices ![0, 62] S1024x1
  slices_S1024x64_o0_63_S1024x1 : S1024x64.Slices ![0, 63] S1024x1
  inb_S1024x4096_S1024x128_0_3968 : ∀ a, (![0, 3968] : Fin 2 → Nat) a + S1024x128.size a ≤ S1024x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x64.size a ≤ S32768x2x64.size a
  hwx0_0 : ∀ i : grid0.Coords, EltTy.bits .f32 = 32 ∨ (Rect.block (s := S32768x2x64) S1024x2x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S32768x4096.size a
  hwx0_1 : ∀ i : grid0.Coords, EltTy.bits .f32 = 32 ∨ (Rect.block (s := S32768x4096) S1024x4096.size (cc0_transform_1 i) (hinb0_1 i)).WholeWords (EltTy.packing .f32)

variable [Facts₀]

abbrev win0_0 : Pipeline.Window sig grid0 :=
  Pipeline.Window.ofSpec (Memref.whole main_arg0) S1024x2x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x2x64 : Shape := ⟨3, ![32768, 2, 64]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S32768x4096 : Shape := ⟨2, ![32768, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32768x2x64, .f32⟩
  | .hbm, ⟨1, _⟩ => ⟨S4096, .i32⟩
  | .hbm, ⟨2, _⟩ => ⟨S4096, .i1⟩
  | .hbm, ⟨3, _⟩ => ⟨S4096, .i32⟩
  | .hbm, ⟨4, _⟩ => ⟨S4096, .i1⟩
  | .hbm, ⟨5, _⟩ => ⟨S4096, .i32⟩
  | .hbm, ⟨6, _⟩ => ⟨S4096, .i1⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S32768x4096, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x1, .i32⟩
  | .hbm, ⟨31, _⟩ => ⟨S4096x2, .i32⟩
  | .hbm, ⟨32, _⟩ => ⟨S32768x4096, .f32⟩
  | .hbm, ⟨33, _⟩ => ⟨S32768x4096, .f32⟩
  | _, _ => ⟨S32768x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_8 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_10 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S32768x2x64_S4096x2_S32768x4096_0_12_n_n_12_1_3276811_wf : GatherDims.WF S32768x2x64 S4096x2 S32768x4096 [0] [1, 2] [] [1, 2] [] 1 ![32768, 1, 1]

variable [Facts₀]

def gather_S32768x2x64_S4096x2_S32768x4096_0_12_n_n_12_1_3276811 : GatherDims S32768x2x64 S4096x2 S32768x4096 where
  offsetDims := [0]
  collapsedSliceDims := [1, 2]
  operandBatchingDims := []
  startIndicesBatchingDims := []
  startIndexMap := [1, 2]
  indexVectorDim := 1
  sliceSizes := ![32768, 1, 1]
  wf := gather_S32768x2x64_S4096x2_S32768x4096_0_12_n_n_12_1_3276811_wf

class Facts : Prop extends Facts₀ where

variable [Facts]
-- ==== Proof.Spec.lean ====
/-
  The specification: the flattened outer product of two membership vectors.

  An input of shape [n, 2, 64] holds, per sample p, two vectors of 64 values, x(p, 0, ·) and x(p, 1, ·). The result of
  shape [n, 4096] holds at (p, q) the product of entry q / 64 of the first vector and entry q % 64 of the second: the
  outer product of the two vectors laid out row by row. Stated once over the number n of samples, so that it speaks of
  one block of 1024 samples and of the whole array of 32768 alike. Values are extended reals; only one product per
  entry is taken, so no law of arithmetic is needed to compare two computations of it.
-/
import Idealize.ShloMosaic.PureOps.Ideal
import Idealize.ShloMosaic.Lib.ValueIdx

noncomputable section

namespace Cert.Outer

open Idealize.ShloMosaic Idealize.ShloMosaic.ValueIdx

/-- Entry (p, q) of the flattened outer product. -/
def outerAt {n : Nat} (x : FVec Ideal ⟨3, ![n, 2, 64]⟩ .f32) (p : Fin n) (q : Fin 4096) : Ideal .f32 :=
  x (ix3 p (0 : Fin 2) (⟨q.val / 64, by have := q.isLt; omega⟩ : Fin 64))
    * x (ix3 p (1 : Fin 2) (⟨q.val % 64, Nat.mod_lt _ (by decide)⟩ : Fin 64))

/-- The flattened outer product as an array of shape [n, 4096]. -/
def outer {n : Nat} (x : FVec Ideal ⟨3, ![n, 2, 64]⟩ .f32) : FVec Ideal ⟨2, ![n, 4096]⟩ .f32 :=
  fun y => outerAt x ⟨(y 0).val, idx2_lt0 y⟩ ⟨(y 1).val, idx2_lt1 y⟩

/-- The array at an index given by its coordinates. -/
theorem outer_ix2 {n : Nat} (x : FVec Ideal ⟨3, ![n, 2, 64]⟩ .f32) (p : Fin n) (q : Fin 4096) :
    outer x (ix2 p q) = outerAt x p q := rfl

/-- An entry from any two positions that are the quotient and the remainder of its column. -/
theorem outerAt_eq {n : Nat} (x : FVec Ideal ⟨3, ![n, 2, 64]⟩ .f32) (p : Fin n) (q : Fin 4096) (e r : Fin 64)
    (he : e.val = q.val / 64) (hr : r.val = q.val % 64) :
    outerAt x p q = x (ix3 p (0 : Fin 2) e) * x (ix3 p (1 : Fin 2) r) := by
  unfold outerAt
  rw [show (⟨q.val / 64, by have := q.isLt; omega⟩ : Fin 64) = e from Fin.ext he.symm,
    show (⟨q.val % 64, Nat.mod_lt _ (by decide)⟩ : Fin 64) = r from Fin.ext hr.symm]

end Cert.Outer

end
-- ==== Proof.KernelBody.lean ====
/-
  The kernel body on one block of 1024 samples.

  The body loads the block's two rows of vectors, row 0 as x(p, 0, ·) and row 1 as x(p, 1, ·), each as a [1024, 64] array,
  and stores the [1024, 4096] output block in 32 column tiles of width 128. Tile κ is two halves side by side: columns
  0–63 hold column 2κ of row 0, spread along the 64 lanes, times row 1; columns 64–127 hold column 2κ + 1 of row 0 times
  row 1. So at local column u the tile holds x(p, 0, 2κ + u / 64) · x(p, 1, u % 64), and since the tile sits at
  columns 128κ … 128κ + 127 of the block, that is the flattened outer product at block column q = 128κ + u:
  q / 64 = 2κ + u / 64 and q % 64 = u % 64. The 32 tiles cover the block, so the block after the body is the outer
  product of its two rows.
-/
import proofs.«163718_j85203561218828_2_alg».proof.Proof.Gen.KernelIdeal.Frame
import proofs.«163718_j85203561218828_2_alg».proof.Proof.Spec
import Idealize.ShloMosaic.Lib.Pipeline.Value
import Idealize.ShloMosaic.Lib.ValueIdx

set_option maxRecDepth 16384

noncomputable section

namespace Cert.KernelIdeal.BodyValue

open Cert.KernelIdeal Cert.KernelIdeal.Gen Idealize.ShloMosaic Idealize.ShloMosaic.ValueIdx Cert.Outer

/-! ## The two rows as the body holds them -/

/-- A [1024, 1, 64] slab with its unit axis dropped reads at (p, e) the slab at (p, 0, e). -/
theorem row_cast (v : Vec Ideal S1024x1x64 .f32) (h : S1024x1x64.ShapeCasts S1024x64) (p : Fin 1024) (e : Fin 64) :
    shapeCast S1024x64 v h (ix2 p e) = v (ix3 p (0 : Fin 1) e) := by
  refine shapeCast_apply v h (ix2 p e) (ix3 p (0 : Fin 1) e) ?_
  rw [Shape.rowMajor_val_three, Shape.rowMajor_val_two]
  show (p.val * 1 + 0) * 64 + e.val = p.val * 64 + e.val
  omega

/-- The slab loaded at row 0 of the block reads the block's row 0. -/
theorem ld_row0 (x0 : Vec Ideal S1024x2x64 .f32) (p : Fin 1024) (e : Fin 64) :
    View.ld x0 r0_0 (ix3 p (0 : Fin 1) e) = x0 (ix3 p (0 : Fin 2) e) := by
  show x0 _ = x0 _
  refine congrArg x0 (funext fun a => Fin.ext ?_)
  match a with
  | ⟨0, _⟩ => show 0 + 1 * p.val = p.val; omega
  | ⟨1, _⟩ => show 0 + 1 * 0 = 0; omega
  | ⟨2, _⟩ => show 0 + 1 * e.val = e.val; omega

/-- The slab loaded at row 1 reads the block's row 1. -/
theorem ld_row1 (x0 : Vec Ideal S1024x2x64 .f32) (p : Fin 1024) (e : Fin 64) :
    View.ld x0 r0_1 (ix3 p (0 : Fin 1) e) = x0 (ix3 p (1 : Fin 2) e) := by
  show x0 _ = x0 _
  refine congrArg x0 (funext fun a => Fin.ext ?_)
  match a with
  | ⟨0, _⟩ => show 0 + 1 * p.val = p.val; omega
  | ⟨1, _⟩ => show 1 + 1 * 0 = 1; omega
  | ⟨2, _⟩ => show 0 + 1 * e.val = e.val; omega

/-- Row 0 as the body's [1024, 64] array. -/
theorem row0_apply (x0 : Vec Ideal S1024x2x64 .f32) (p : Fin 1024) (e : Fin 64) :
    k0_pay1 (F := Ideal) (View.ld x0 r0_0) (ix2 p e) = x0 (ix3 p (0 : Fin 2) e) := by
  unfold k0_pay1
  exact (row_cast _ _ p e).trans (ld_row0 x0 p e)

/-- Row 1 as the body's [1024, 64] array. -/
theorem row1_apply (x0 : Vec Ideal S1024x2x64 .f32) (p : Fin 1024) (e : Fin 64) :
    k0_pay2 (F := Ideal) (View.ld x0 r0_1) (ix2 p e) = x0 (ix3 p (1 : Fin 2) e) := by
  unfold k0_pay2
  exact (row_cast _ _ p e).trans (ld_row1 x0 p e)

/-! ## One tile: two scaled copies of row 1 side by side -/

/-- Column c of v1 spread along the lanes, times v3, at (p, w): v1(p, c) · v3(p, w). -/
theorem half_apply (v1 v3 : FVec Ideal S1024x64 .f32) (c : Nat) (h : S1024x64.Slices ![0, c] S1024x1)
    (hb : S1024x1.Broadcasts S1024x64) (p : Fin 1024) (w e : Fin 64) (he : e.val = c) :
    mulf (broadcastTo S1024x64 (extractStridedSlice S1024x1 ![0, c] v1 h) hb) v3 (ix2 p w) = v1 (ix2 p e) * v3 (ix2 p w) := by
  rw [mulf_apply]
  rw [broadcastTo_apply _ hb (ix2 p w) (ix2 p (0 : Fin 1)) (fun d => by match d with | ⟨0, _⟩ => rfl | ⟨1, _⟩ => rfl)]
  rw [extractStridedSlice_apply ![0, c] v1 h (ix2 p (0 : Fin 1)) (ix2 p e) (fun d => by
    match d with
    | ⟨0, _⟩ => show p.val = 0 + p.val; omega
    | ⟨1, _⟩ => show e.val = c + 0; omega)]

/-- The tile at local column u: the left half (u < 64) is column c0 of v1 times v3, the right half column c1 of v1
    times v3, both read at lane u % 64. -/
theorem pair_apply (v1 v3 : FVec Ideal S1024x64 .f32) (c0 c1 : Nat)
    (h0 : S1024x64.Slices ![0, c0] S1024x1) (h1 : S1024x64.Slices ![0, c1] S1024x1)
    (hb : S1024x1.Broadcasts S1024x64) (hc : Shape.Concatenates [S1024x64, S1024x64] S1024x128 1)
    (p : Fin 1024) (u : Fin 128) (e r : Fin 64)
    (he : e.val = if u.val < 64 then c0 else c1) (hr : r.val = u.val % 64) :
    concatenate S1024x128 1 [⟨S1024x64, mulf (broadcastTo S1024x64 (extractStridedSlice S1024x1 ![0, c0] v1 h0) hb) v3⟩,
      ⟨S1024x64, mulf (broadcastTo S1024x64 (extractStridedSlice S1024x1 ![0, c1] v1 h1) hb) v3⟩] hc (ix2 p u)
    = v1 (ix2 p e) * v3 (ix2 p r) := by
  by_cases hu : u.val < 64
  · rw [if_pos hu] at he
    have hru : r = ⟨u.val, hu⟩ := Fin.ext (by rw [hr]; exact Nat.mod_eq_of_lt hu)
    rw [concatenate_pair_apply_left (s₁ := S1024x64) (s₂ := S1024x64) (1 : Fin 2) _ _ hc (ix2 p u) rfl (ix2 p (⟨u.val, hu⟩ : Fin 64))
      (fun d => by match d with | ⟨0, _⟩ => rfl | ⟨1, _⟩ => rfl)]
    rw [half_apply v1 v3 c0 h0 hb p ⟨u.val, hu⟩ e he, hru]
  · rw [if_neg hu] at he
    have hu2 : u.val - 64 < 64 := by have := u.isLt; omega
    have hru : r = ⟨u.val - 64, hu2⟩ := Fin.ext (by rw [hr]; show u.val % 64 = u.val - 64; have := u.isLt; omega)
    rw [concatenate_pair_apply_right (s₁ := S1024x64) (s₂ := S1024x64) (1 : Fin 2) _ _ hc (ix2 p u) rfl rfl (ix2 p (⟨u.val - 64, hu2⟩ : Fin 64))
      (fun d hd => by match d with | ⟨0, _⟩ => rfl | ⟨1, _⟩ => exact absurd rfl hd)
      (by show (u.val - 64) + 64 = u.val; omega)]
    rw [half_apply v1 v3 c1 h1 hb p ⟨u.val - 64, hu2⟩ e he, hru]

/-! ## A tile is its part of the outer product -/

/-- The tile of columns off … off + 127, off = 64·c0, built from columns c0 and c0 + 1 of row 0, is the block's outer
    product read through the tile's rectangle. -/
theorem piece_eq (x0 : Vec Ideal S1024x2x64 .f32) (c0 c1 off : Nat)
    (h0 : S1024x64.Slices ![0, c0] S1024x1) (h1 : S1024x64.Slices ![0, c1] S1024x1)
    (hb : S1024x1.Broadcasts S1024x64) (hc : Shape.Concatenates [S1024x64, S1024x64] S1024x128 1)
    (inb : ∀ a, (![0, off] : Fin 2 → Nat) a + S1024x128.size a ≤ S1024x4096.size a)
    (hoff : off = 64 * c0) (hc1 : c1 = c0 + 1) (hlt : c1 < 64) (x : S1024x128.Idx) :
    concatenate S1024x128 1
      [⟨S1024x64, mulf (broadcastTo S1024x64 (extractStridedSlice S1024x1 ![0, c0] (k0_pay1 (F := Ideal) (View.ld x0 r0_0)) h0) hb)
          (k0_pay2 (F := Ideal) (View.ld x0 r0_1))⟩,
        ⟨S1024x64, mulf (broadcastTo S1024x64 (extractStridedSlice S1024x1 ![0, c1] (k0_pay1 (F := Ideal) (View.ld x0 r0_0)) h1) hb)
          (k0_pay2 (F := Ideal) (View.ld x0 r0_1))⟩] hc x
    = outer (n := 1024) x0 ((Rect.unit (s := S1024x4096) ![0, off] S1024x128.size inb).emb x) := by
  obtain ⟨p, u, rfl⟩ : ∃ (p : Fin 1024) (u : Fin 128), x = ix2 p u := ⟨x 0, x 1, eq_ix2 x⟩
  have hu := u.isLt
  have hq : off + u.val < 4096 := by omega
  have hemb : (Rect.unit (s := S1024x4096) ![0, off] S1024x128.size inb).emb (ix2 p u) = ix2 p (⟨off + u.val, hq⟩ : Fin 4096) := by
    funext a; refine Fin.ext ?_
    match a with
    | ⟨0, _⟩ => show 0 + 1 * p.val = p.val; omega
    | ⟨1, _⟩ => show off + 1 * u.val = off + u.val; omega
  have hcol : (if u.val < 64 then c0 else c1) < 64 := by split <;> omega
  rw [hemb, outer_ix2,
    outerAt_eq x0 p ⟨off + u.val, hq⟩ ⟨if u.val < 64 then c0 else c1, hcol⟩ ⟨u.val % 64, Nat.mod_lt _ (by decide)⟩
      (by show (if u.val < 64 then c0 else c1) = (off + u.val) / 64; split <;> omega)
      (by show u.val % 64 = (off + u.val) % 64; omega),
    pair_apply _ _ c0 c1 h0 h1 hb hc p u ⟨if u.val < 64 then c0 else c1, hcol⟩ ⟨u.val % 64, Nat.mod_lt _ (by decide)⟩ rfl rfl,
    row0_apply, row1_apply]

/-! ## The block after the body -/

/-- THE BODY'S RESULT: the output block is the outer product of the input block's two rows. -/
theorem out_eq (x0 : Vec Ideal S1024x2x64 .f32) : out0_1 (F := Ideal) x0 = outer (n := 1024) x0 := by
  funext y
  unfold out0_1
  refine View.canon_apply_of_pieces (Val := Elt Ideal) (S := S1024x4096) (e := .f32) (outer (n := 1024) x0) _ ?_ y (cover0_1 _ _ _ _ _ _ _ _ _ _ _ _ _ _ _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => piece_eq x0 _ _ _ (by decide) (by decide) Facts₀.broadcasts_S1024x1_S1024x64 Facts₀.concatenates_S1024x64_S1024x64_S1024x128_d1 (by decide) (by rfl) (by rfl) (by decide) x

end Cert.KernelIdeal.BodyValue

end
-- ==== Proof.KernelValue.lean ====
/-
  From blocks to the array: the kernel's result.

  The grid has 32 points. Point t stages rows 1024·t … 1024·t + 1023 of the [32768, 2, 64] argument (all of the other two
  axes) and writes back rows 1024·t … 1024·t + 1023 of the [32768, 4096] result (all 4096 columns). The body turns a block
  into the outer product of its two rows, and an entry of the outer product depends on one sample only, so what point t
  writes back is block t of the outer product of the whole argument. Every row lies in the block of the point
  t = row / 1024, so the blocks cover the result, which therefore ends as the outer product of the argument.
-/
import proofs.«163718_j85203561218828_2_alg».proof.Proof.Gen.KernelIdeal.Value
import proofs.«163718_j85203561218828_2_alg».proof.Proof.KernelBody

set_option maxRecDepth 16384

noncomputable section

namespace Cert.KernelIdeal.ArrayValue

open Cert.KernelIdeal Cert.KernelIdeal.Gen Cert.KernelIdeal.BodyValue Cert.Outer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: both windows move with the point along the sample axis and stay at block 0
    on the others. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- An entry of a block's outer product is the entry of the array's, when the block is rows 1024·t … of the array. -/
theorem entry_eq (X : FVec Ideal S32768x2x64 .f32) (B : FVec Ideal S1024x2x64 .f32) (t : Nat) (ht : t < 32)
    (hB : ∀ (p : Fin 1024) (i : Fin 2) (e : Fin 64),
      B (ix3 p i e) = X (ix3 (⟨t * 1024 + p.val, by have := p.isLt; omega⟩ : Fin 32768) i e))
    (p : Fin 1024) (q : Fin 4096) :
    outerAt (n := 1024) B p q = outerAt (n := 32768) X ⟨t * 1024 + p.val, by have := p.isLt; omega⟩ q := by
  unfold outerAt
  rw [hB, hB]

/-- The input block at point t is rows 1024·t … of the argument. -/
theorem iblk_apply (c : Dev nD) (t : Fin cfg0.N) (p : Fin 1024) (i : Fin 2) (e : Fin 64) :
    iblk m c 0 t (ix3 p i e)
      = V m c main_arg0 (ix3 (⟨t.val * 1024 + p.val, by have := p.isLt; have : t.val < 32 := t.isLt; omega⟩ : Fin 32768) i e) := by
  obtain ⟨e0, e1, e2, -, -⟩ := idx_facts t
  show V m c main_arg0 (((cfg0.win 0).blk t).view.emb (ix3 p i e)) = _
  refine congrArg (V m c main_arg0) (funext fun a => Fin.ext ?_)
  match a with
  | ⟨0, _⟩ => show win0_0.index t (0 : Fin 3) * 1024 + 1 * p.val = t.val * 1024 + p.val; omega
  | ⟨1, _⟩ => show win0_0.index t (1 : Fin 3) * 2 + 1 * i.val = i.val; omega
  | ⟨2, _⟩ => show win0_0.index t (2 : Fin 3) * 64 + 1 * e.val = e.val; omega

/-- WHAT POINT t WRITES BACK is block t of the outer product of the argument as the region finds it. -/
theorem flushed_eq (c : Dev nD) (t : Fin cfg0.N) :
    (dats m 0 c).flushed 1 t = ((cfg0.win 1).blk t).view.read (Elt Ideal) (outer (n := 32768) (V m c main_arg0)) := by
  rw [Cert.KernelIdeal.Value.flushed1, out_eq]
  obtain ⟨-, -, -, e3, e4⟩ := idx_facts t
  have ht : t.val < 32 := t.isLt
  funext j
  have hj0 : (j 0).val < 1024 := (j 0).isLt
  have hj1 : (j 1).val < 4096 := (j 1).isLt
  show outer (n := 1024) (iblk m c 0 t) j = outer (n := 32768) (V m c main_arg0) (((cfg0.win 1).blk t).view.emb j)
  have hj : ((cfg0.win 1).blk t).view.emb j
      = ix2 (⟨t.val * 1024 + (j 0).val, by omega⟩ : Fin 32768) (⟨(j 1).val, hj1⟩ : Fin 4096) := by
    funext a; apply Fin.ext
    match a with
    | ⟨0, _⟩ => show win0_1.index t (0 : Fin 2) * 1024 + 1 * (j 0).val = t.val * 1024 + (j 0).val; omega
    | ⟨1, _⟩ => show win0_1.index t (1 : Fin 2) * 4096 + 1 * (j 1).val = (j 1).val; omega
  rw [hj, outer_ix2]
  exact entry_eq (V m c main_arg0) (iblk m c 0 t) t.val ht (fun p i e => iblk_apply m c t p i e) ⟨(j 0).val, hj0⟩ ⟨(j 1).val, hj1⟩

/-- An index of the result is in point t's block iff each coordinate is in the block's range on its axis. -/
theorem mem_blk (t : Fin cfg0.N) (i : S32768x4096.Idx) :
    i ∈ ((cfg0.win 1).blk t).view.set ↔ ∀ a : Fin 2, win0_1.index t a * S1024x4096.size a ≤ (i a).val
      ∧ (i a).val < win0_1.index t a * S1024x4096.size a + S1024x4096.size a := by
  show i ∈ ((View.whole main_v0).slice (win0_1.rect t)).set ↔ _
  rw [View.set_slice_whole, Rect.mem_set_unit]
  exact Iff.rfl

/-- Every index of the result is in the block of the point its row falls in. -/
theorem cover (i : S32768x4096.Idx) :
    ∃ t : Fin cfg0.N, (cfg0.win 1).flush t = true ∧ i ∈ ((cfg0.win 1).blk t).view.set := by
  have hi0 : (i 0).val < 32768 := (i 0).isLt
  have hi1 : (i 1).val < 4096 := (i 1).isLt
  have hlt : (i 0).val / 1024 < cfg0.N := by show (i 0).val / 1024 < 32; omega
  obtain ⟨-, -, -, e3, e4⟩ := idx_facts ⟨(i 0).val / 1024, hlt⟩
  have e3' : win0_1.index ⟨(i 0).val / 1024, hlt⟩ (0 : Fin 2) = (i 0).val / 1024 := e3
  refine ⟨⟨(i 0).val / 1024, hlt⟩, flush0_1 _, ?_⟩
  rw [mem_blk]
  intro a
  match a with
  | ⟨0, _⟩ =>
    show win0_1.index ⟨(i 0).val / 1024, hlt⟩ (0 : Fin 2) * 1024 ≤ (i 0).val
      ∧ (i 0).val < win0_1.index ⟨(i 0).val / 1024, hlt⟩ (0 : Fin 2) * 1024 + 1024
    omega
  | ⟨1, _⟩ =>
    show win0_1.index ⟨(i 0).val / 1024, hlt⟩ (1 : Fin 2) * 4096 ≤ (i 1).val
      ∧ (i 1).val < win0_1.index ⟨(i 0).val / 1024, hlt⟩ (1 : Fin 2) * 4096 + 4096
    omega

/-- THE RESULT ARRAY after the run: the outer product of the argument as launched. -/
theorem final (c : Dev nD) :
    (dats m 0 c).arrAt 1 cfg0.N = outer (n := 32768) (m ((c : Thread nD τ).loc main_arg0)) :=
  (dats m 0 c).arrAt_eq_of_cover 1 (outer (n := 32768) (V m c main_arg0)) (fun t _ => flushed_eq m c t) cover

/-- The kernel's run, read: every weakly fair execution terminates with the result at the outer product of the argument
    and the argument unchanged. -/
theorem run : θ_run defs (onTc (τ := τ) (main (F := Ideal))) ⟨m, fun _ => 0, ρ⟩ fun r => ∀ c : Dev nD,
      r.2.mem ((c : Thread nD τ).loc main_v0) = outer (n := 32768) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.ArrayValue

end
-- ==== Proof.RefRun.lean ====
/-
  The reference program's host line, run.

  The reference is a straight line of 33 host operations and no kernel: two constant index tables (4096 words each), each
  passed through the wrap of negative indices (a select, on an all-false mask, between the entry plus the axis length
  and the entry: the table itself comes out), paired with a constant first component (0, then 1) as the two columns of a [4096, 2] array of start indices; one
  gather of the argument at each array of start indices; and the product of the two gathers. This module lists the
  operations in order, shows that the printed @main is that list run in sequence, and reads the run back: every weakly
  fair execution terminates with the result buffer at the operations' composed term of the argument's launch contents
  (`refOut`), the argument unchanged.
-/
import proofs.«163718_j85203561218828_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- An index table after the wrap of negative entries by the axis length `n`: where the mask is set the entry plus `n`,
    elsewhere the entry. The mask the program passes is the all-false constant. -/
abbrev wrapIdx (n : BitVec 32) (a : IVec S4096 32) : IVec S4096 32 :=
  select (constantI S4096 1 0#1) (addi a (broadcastInDim S4096 ![] bcast_S_S4096 (constantI S_ 32 n))) a

/-- Two [4096, 1] columns side by side: the program's concatenation along axis 1, as one function of the two columns. -/
def catCols (a b : IVec S4096x1 32) : IVec S4096x2 32 :=
  concatenate S4096x2 1 [⟨S4096x1, a⟩, ⟨S4096x1, b⟩] concatenates_S4096x1_S4096x1_S4096x2_d1

/-- The start indices of one gather: first components `a` (wrapped by the middle axis' length 2) and second components
    `b` (wrapped by the last axis' length 64), each as a [4096, 1] column, side by side. -/
abbrev idxPair (a b : IVec S4096 32) : IVec S4096x2 32 :=
  catCols (broadcastInDim S4096x1 ![0] bcast_S4096_S4096x1_0 (wrapIdx 2#32 a))
    (broadcastInDim S4096x1 ![0] bcast_S4096_S4096x1_0 (wrapIdx 64#32 b))

/-- The reference's result as a term of its argument: the gather at (0, first table) times the gather at (1, second table). -/
abbrev refOut (x : FVec F S32768x2x64 .f32) : FVec F S32768x4096 .f32 :=
  mulf (Host.gather gather_S32768x2x64_S4096x2_S32768x4096_0_12_n_n_12_1_3276811 x (idxPair (constantI S4096 32 0#32) (fun i => lit0 (S4096.rowMajor i))))
    (Host.gather gather_S32768x2x64_S4096x2_S32768x4096_0_12_n_n_12_1_3276811 x (idxPair (constantI S4096 32 1#32) (fun i => lit1 (S4096.rowMajor i))))

/-- @main's 33 operations, in order. -/
abbrev ops : List (HloOp τ sig (Elt F)) :=
  [ nullary main_c (constantI S4096 32 0#32),
    nullary main_c_0 (constantI S4096 1 0#1),
    nullary main_c_1 (fun i => lit0 (S4096.rowMajor i)),
    nullary main_c_2 (constantI S4096 1 0#1),
    nullary main_c_3 (constantI S4096 32 1#32),
    nullary main_c_4 (constantI S4096 1 0#1),
    nullary main_c_5 (fun i => lit1 (S4096.rowMajor i)),
    nullary main_c_6 (constantI S4096 1 0#1),
    nullary main_c_7 (constantI S_ 32 2#32),
    unary main_c_7 main_v0 (broadcastInDim S4096 ![] bcast_S_S4096 : (⟨S_, .i32⟩ : BufTy).Contents (Elt F) → (⟨S4096, .i32⟩ : BufTy).Contents (Elt F)),
    binary main_c main_v0 main_v1 (addi : (⟨S4096, .i32⟩ : BufTy).Contents (Elt F) → (⟨S4096, .i32⟩ : BufTy).Contents (Elt F) → (⟨S4096, .i32⟩ : BufTy).Contents (Elt F)),
    ternary main_c_0 main_v1 main_c main_v2 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 64#32),
    unary main_c_8 main_v3 (broadcastInDim S4096 ![] bcast_S_S4096 : (⟨S_, .i32⟩ : BufTy).Contents (Elt F) → (⟨S4096, .i32⟩ : BufTy).Contents (Elt F)),
    binary main_c_1 main_v3 main_v4 (addi : (⟨S4096, .i32⟩ : BufTy).Contents (Elt F) → (⟨S4096, .i32⟩ : BufTy).Contents (Elt F) → (⟨S4096, .i32⟩ : BufTy).Contents (Elt F)),
    ternary main_c_2 main_v4 main_c_1 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v2 main_v6 (broadcastInDim S4096x1 ![0] bcast_S4096_S4096x1_0 : (⟨S4096, .i32⟩ : BufTy).Contents (Elt F) → (⟨S4096x1, .i32⟩ : BufTy).Contents (Elt F)),
    unary main_v5 main_v7 (broadcastInDim S4096x1 ![0] bcast_S4096_S4096x1_0 : (⟨S4096, .i32⟩ : BufTy).Contents (Elt F) → (⟨S4096x1, .i32⟩ : BufTy).Contents (Elt F)),
    binary main_v6 main_v7 main_v8 (catCols : (⟨S4096x1, .i32⟩ : BufTy).Contents (Elt F) → (⟨S4096x1, .i32⟩ : BufTy).Contents (Elt F) → (⟨S4096x2, .i32⟩ : BufTy).Contents (Elt F)),
    binary main_arg0 main_v8 main_v9 ((fun x i => Host.gather gather_S32768x2x64_S4096x2_S32768x4096_0_12_n_n_12_1_3276811 x i) : (⟨S32768x2x64, .f32⟩ : BufTy).Contents (Elt F) → (⟨S4096x2, .i32⟩ : BufTy).Contents (Elt F) → (⟨S32768x4096, .f32⟩ : BufTy).Contents (Elt F)),
    nullary main_c_9 (constantI S_ 32 2#32),
    unary main_c_9 main_v10 (broadcastInDim S4096 ![] bcast_S_S4096 : (⟨S_, .i32⟩ : BufTy).Contents (Elt F) → (⟨S4096, .i32⟩ : BufTy).Contents (Elt F)),
    binary main_c_3 main_v10 main_v11 (addi : (⟨S4096, .i32⟩ : BufTy).Contents (Elt F) → (⟨S4096, .i32⟩ : BufTy).Contents (Elt F) → (⟨S4096, .i32⟩ : BufTy).Contents (Elt F)),
    ternary main_c_4 main_v11 main_c_3 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 64#32),
    unary main_c_10 main_v13 (broadcastInDim S4096 ![] bcast_S_S4096 : (⟨S_, .i32⟩ : BufTy).Contents (Elt F) → (⟨S4096, .i32⟩ : BufTy).Contents (Elt F)),
    binary main_c_5 main_v13 main_v14 (addi : (⟨S4096, .i32⟩ : BufTy).Contents (Elt F) → (⟨S4096, .i32⟩ : BufTy).Contents (Elt F) → (⟨S4096, .i32⟩ : BufTy).Contents (Elt F)),
    ternary main_c_6 main_v14 main_c_5 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v16 (broadcastInDim S4096x1 ![0] bcast_S4096_S4096x1_0 : (⟨S4096, .i32⟩ : BufTy).Contents (Elt F) → (⟨S4096x1, .i32⟩ : BufTy).Contents (Elt F)),
    unary main_v15 main_v17 (broadcastInDim S4096x1 ![0] bcast_S4096_S4096x1_0 : (⟨S4096, .i32⟩ : BufTy).Contents (Elt F) → (⟨S4096x1, .i32⟩ : BufTy).Contents (Elt F)),
    binary main_v16 main_v17 main_v18 (catCols : (⟨S4096x1, .i32⟩ : BufTy).Contents (Elt F) → (⟨S4096x1, .i32⟩ : BufTy).Contents (Elt F) → (⟨S4096x2, .i32⟩ : BufTy).Contents (Elt F)),
    binary main_arg0 main_v18 main_v19 ((fun x i => Host.gather gather_S32768x2x64_S4096x2_S32768x4096_0_12_n_n_12_1_3276811 x i) : (⟨S32768x2x64, .f32⟩ : BufTy).Contents (Elt F) → (⟨S4096x2, .i32⟩ : BufTy).Contents (Elt F) → (⟨S32768x4096, .f32⟩ : BufTy).Contents (Elt F)),
    binary main_v9 main_v19 main_v20 (mulf : (⟨S32768x4096, .f32⟩ : BufTy).Contents (Elt F) → (⟨S32768x4096, .f32⟩ : BufTy).Contents (Elt F) → (⟨S32768x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., binary_bufs_sub ..⟩

/-- What the line leaves in the result buffer, from any contents `V` of the buffers: `refOut` of the argument's. -/
theorem result_eq (V : Valuation τ sig (Elt F)) :
    after ops V (Proc.devRef .tc main_v20) = refOut (F := F) (V (Proc.devRef .tc main_arg0)) := by
  after_results_simp
  rfl

/-- No operation of the line writes the argument. -/
theorem arg_kept (V : Valuation τ sig (Elt F)) :
    after ops V (Proc.devRef .tc main_arg0) = V (Proc.devRef .tc main_arg0) := by
  after_results_simp

/-- On every device, from any memory with zero counters: every weakly fair execution of @main terminates with the result
    at `refOut` of the argument as launched, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refOut (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v20).trans (result_eq _), (h c main_arg0).trans (arg_kept _)⟩)
    (run_seq scopedRefs_eq scopedSems_eq defs main (fun _ => ops) main_eq (fun _ => ops_sub) m ρ)

end Cert.ReferenceIdeal.HostRun

end
-- ==== Proof.Tables.lean ====
/-
  The reference's two constant index tables, read.

  The reference enumerates the pairs (j1, j2) of two 64-element membership vectors in the order k = 64·j1 + j2 and stores
  the enumeration as two tables of 4096 words: entry k of the first is j1 = k / 64, entry k of the second is
  j2 = k % 64. Both facts are checked entry by entry over the printed tables. A gather reads a start index as a signed
  word and clamps it into the axis; for these entries (all below 64) the signed value is the entry and the clamp to
  [0, 63] changes nothing.
-/
import proofs.«163718_j85203561218828_2_alg».proof.ReferenceIdeal

namespace Cert.ReferenceIdeal.Tables

open Cert.ReferenceIdeal

/-- Entry k of the first table is the quotient k / 64. -/
theorem lit0_val : ∀ k : Fin 4096, lit0 k = BitVec.ofNat 32 (k.val / 64) := by decide +kernel

/-- Entry k of the second table is the remainder k % 64. -/
theorem lit1_val : ∀ k : Fin 4096, lit1 k = BitVec.ofNat 32 (k.val % 64) := by decide +kernel

/-- A 32-bit word below 64 read as a signed integer is itself. -/
theorem toInt_toNat_small : ∀ n : Fin 64, (BitVec.ofNat 32 n.val).toInt.toNat = n.val := by decide +kernel

/-- The first table's entry k, read signed and clamped into the last axis [0, 63], is k / 64. -/
theorem clamp_lit0 (k : Fin 4096) : min (lit0 k).toInt.toNat 63 = k.val / 64 := by
  have h : k.val / 64 < 64 := by have := k.isLt; omega
  have e : (BitVec.ofNat 32 (k.val / 64)).toInt.toNat = k.val / 64 := toInt_toNat_small ⟨k.val / 64, h⟩
  rw [lit0_val, e]; omega

/-- The second table's entry k, read signed and clamped into the last axis [0, 63], is k % 64. -/
theorem clamp_lit1 (k : Fin 4096) : min (lit1 k).toInt.toNat 63 = k.val % 64 := by
  have h : k.val % 64 < 64 := Nat.mod_lt _ (by decide)
  have e : (BitVec.ofNat 32 (k.val % 64)).toInt.toNat = k.val % 64 := toInt_toNat_small ⟨k.val % 64, h⟩
  rw [lit1_val, e]; omega

/-- The constant first components: the word 0 read signed and clamped into the middle axis [0, 1] is 0, the word 1 is 1. -/
theorem clamp_zero : min (0#32 : BitVec 32).toInt.toNat 1 = 0 := by decide
theorem clamp_one : min (1#32 : BitVec 32).toInt.toNat 1 = 1 := by decide

end Cert.ReferenceIdeal.Tables
-- ==== Proof.RefValue.lean ====
/-
  The reference's result, index by index.

  The gather's dimension record takes the whole first axis of the [32768, 2, 64] argument as its one offset axis and
  collapses the other two, so result entry (b, k) is the argument at (b, i1, i2), where (i1, i2) is row k of the [4096, 2]
  start indices, each component read as a signed word and clamped into its axis. The two columns of the start indices
  are an index table after the wrap of negative entries, whose mask is all false: column 0 at row k is the first table's
  entry k, column 1 the second's. With the tables read (entry k is k / 64, resp. k % 64; the constant first components are
  0, resp. 1) the reference's result at (b, k) is x(b, 0, k / 64) · x(b, 1, k % 64).
-/
import proofs.«163718_j85203561218828_2_alg».proof.Proof.RefRun
import proofs.«163718_j85203561218828_2_alg».proof.Proof.Tables
import Idealize.ShloMosaic.Lib.ValueIdx
import Idealize.ShloMosaic.Lib.Pipeline.Value

noncomputable section

namespace Cert.ReferenceIdeal.HostValue

open Cert.ReferenceIdeal Cert.ReferenceIdeal.Gen Cert.ReferenceIdeal.HostRun Idealize.ShloMosaic Idealize.ShloMosaic.ValueIdx

/-- The gather's dimension record. -/
abbrev gd : GatherDims S32768x2x64 S4096x2 S32768x4096 := gather_S32768x2x64_S4096x2_S32768x4096_0_12_n_n_12_1_3276811

/-! ## The gather read at an index -/

/-- Component 0 of the start index of result entry (b, k) sits at (k, 0) of the start indices. -/
theorem siIdx0 (b : Fin 32768) (k : Fin 4096) (h) : gd.siIdx (ix2 b k) ⟨0, h⟩ = ix2 k (0 : Fin 2) := by
  funext a; refine Fin.ext ?_
  match a with
  | ⟨0, _⟩ => rfl
  | ⟨1, _⟩ => rfl

/-- Component 1 sits at (k, 1). -/
theorem siIdx1 (b : Fin 32768) (k : Fin 4096) (h) : gd.siIdx (ix2 b k) ⟨1, h⟩ = ix2 k (1 : Fin 2) := by
  funext a; refine Fin.ext ?_
  match a with
  | ⟨0, _⟩ => rfl
  | ⟨1, _⟩ => rfl

variable (idx : IVec S4096x2 32) (b : Fin 32768) (k : Fin 4096)

/-- On the first operand axis (the offset axis, not indexed): the result's row b. -/
theorem coord0 : (gd.operandIdx (ix2 b k) idx 0).val = b.val := by
  show gd.start (ix2 b k) idx 0 + gd.batchCoord (ix2 b k) 0 + gd.offCoord (ix2 b k) 0 = b.val
  have e1 : gd.start (ix2 b k) idx 0 = 0 := rfl
  have e2 : gd.batchCoord (ix2 b k) 0 = 0 := rfl
  have e3 : gd.offCoord (ix2 b k) 0 = b.val := rfl
  rw [e1, e2, e3]; omega

/-- On the middle axis (collapsed, indexed by component 0): the start index clamped into [0, 1]. -/
theorem coord1 : (gd.operandIdx (ix2 b k) idx 1).val = min (idx (ix2 k (0 : Fin 2))).toInt.toNat 1 := by
  show gd.start (ix2 b k) idx 1 + gd.batchCoord (ix2 b k) 1 + gd.offCoord (ix2 b k) 1 = _
  have e1 : gd.start (ix2 b k) idx 1 = min (idx (gd.siIdx (ix2 b k) ⟨0, by decide⟩)).toInt.toNat 1 := rfl
  have e2 : gd.batchCoord (ix2 b k) 1 = 0 := rfl
  have e3 : gd.offCoord (ix2 b k) 1 = 0 := rfl
  rw [e1, e2, e3, siIdx0]; omega

/-- On the last axis (collapsed, indexed by component 1): the start index clamped into [0, 63]. -/
theorem coord2 : (gd.operandIdx (ix2 b k) idx 2).val = min (idx (ix2 k (1 : Fin 2))).toInt.toNat 63 := by
  show gd.start (ix2 b k) idx 2 + gd.batchCoord (ix2 b k) 2 + gd.offCoord (ix2 b k) 2 = _
  have e1 : gd.start (ix2 b k) idx 2 = min (idx (gd.siIdx (ix2 b k) ⟨1, by decide⟩)).toInt.toNat 63 := rfl
  have e2 : gd.batchCoord (ix2 b k) 2 = 0 := rfl
  have e3 : gd.offCoord (ix2 b k) 2 = 0 := rfl
  rw [e1, e2, e3, siIdx1]; omega

/-- THE GATHER AT (b, k): the operand at row b and at the two start-index components of row k, each read signed and
    clamped into its axis. Stated with the two clamped values named, so that a caller supplies them as numbers. -/
theorem gather_apply {α : Type} (x : S32768x2x64.Idx → α) (i1 : Fin 2) (i2 : Fin 64)
    (h1 : min (idx (ix2 k (0 : Fin 2))).toInt.toNat 1 = i1.val)
    (h2 : min (idx (ix2 k (1 : Fin 2))).toInt.toNat 63 = i2.val) :
    Host.gather gd x idx (ix2 b k) = x (ix3 b i1 i2) := by
  unfold Host.gather
  refine congrArg x ?_
  funext a
  refine Fin.ext ?_
  match a with
  | ⟨0, _⟩ => exact coord0 idx b k
  | ⟨1, _⟩ => exact (coord1 idx b k).trans h1
  | ⟨2, _⟩ => exact (coord2 idx b k).trans h2

/-! ## The start indices read at an index -/

/-- A table after the wrap under the all-false mask is the table. -/
theorem wrapIdx_apply (n : BitVec 32) (a : IVec S4096 32) (i : S4096.Idx) : wrapIdx n a i = a i := by
  unfold wrapIdx
  rw [select_apply]
  exact select_zero _ _

/-- Column 0 of the start indices at row k: the first components' entry k. -/
theorem idxPair_col0 (a c : IVec S4096 32) : idxPair a c (ix2 k (0 : Fin 2)) = a (ix1 k) := by
  unfold idxPair catCols
  rw [concatenate_pair_apply_left (s₁ := S4096x1) (s₂ := S4096x1) (1 : Fin 2) _ _ concatenates_S4096x1_S4096x1_S4096x2_d1 (ix2 k (0 : Fin 2)) rfl
    (ix2 k (0 : Fin 1)) (fun d => by match d with | ⟨0, _⟩ => rfl | ⟨1, _⟩ => rfl)]
  rw [broadcastInDim_apply _ _ _ _ (ix1 k) (fun d => by match d with | ⟨0, _⟩ => rfl)]
  exact wrapIdx_apply _ _ _

/-- Column 1 at row k: the second components' entry k. -/
theorem idxPair_col1 (a c : IVec S4096 32) : idxPair a c (ix2 k (1 : Fin 2)) = c (ix1 k) := by
  unfold idxPair catCols
  rw [concatenate_pair_apply_right (s₁ := S4096x1) (s₂ := S4096x1) (1 : Fin 2) _ _ concatenates_S4096x1_S4096x1_S4096x2_d1 (ix2 k (1 : Fin 2)) rfl rfl
    (ix2 k (0 : Fin 1)) (fun d hd => by match d with | ⟨0, _⟩ => rfl | ⟨1, _⟩ => exact absurd rfl hd) rfl]
  rw [broadcastInDim_apply _ _ _ _ (ix1 k) (fun d => by match d with | ⟨0, _⟩ => rfl)]
  exact wrapIdx_apply _ _ _

/-- The row-major position of entry k of a [4096] array is k. -/
theorem rowMajor_ix1 : S4096.rowMajor (ix1 k) = k := Fin.ext (Shape.rowMajor_val_one (ix1 k))

/-! ## The reference's result -/

variable {F : FTy → Type} [FloatOps F]

/-- The first gather at (b, k) reads x(b, 0, k / 64). -/
theorem gather0_apply (x : FVec F S32768x2x64 .f32) (q : Fin 64) (hq : q.val = k.val / 64) :
    Host.gather gd x (idxPair (constantI S4096 32 0#32) (fun i => lit0 (S4096.rowMajor i))) (ix2 b k) = x (ix3 b (0 : Fin 2) q) := by
  refine gather_apply _ b k x (0 : Fin 2) q ?_ ?_
  · rw [idxPair_col0]; exact Tables.clamp_zero
  · rw [idxPair_col1]
    show min (lit0 (S4096.rowMajor (ix1 k))).toInt.toNat 63 = q.val
    rw [rowMajor_ix1, Tables.clamp_lit0, hq]

/-- The second gather at (b, k) reads x(b, 1, k % 64). -/
theorem gather1_apply (x : FVec F S32768x2x64 .f32) (r : Fin 64) (hr : r.val = k.val % 64) :
    Host.gather gd x (idxPair (constantI S4096 32 1#32) (fun i => lit1 (S4096.rowMajor i))) (ix2 b k) = x (ix3 b (1 : Fin 2) r) := by
  refine gather_apply _ b k x (1 : Fin 2) r ?_ ?_
  · rw [idxPair_col0]; exact Tables.clamp_one
  · rw [idxPair_col1]
    show min (lit1 (S4096.rowMajor (ix1 k))).toInt.toNat 63 = r.val
    rw [rowMajor_ix1, Tables.clamp_lit1, hr]

/-- THE REFERENCE AT (b, k), at the exact instance: x(b, 0, k / 64) · x(b, 1, k % 64). -/
theorem refOut_apply (x : FVec Ideal S32768x2x64 .f32) (q r : Fin 64) (hq : q.val = k.val / 64) (hr : r.val = k.val % 64) :
    refOut (F := Ideal) x (ix2 b k) = x (ix3 b (0 : Fin 2) q) * x (ix3 b (1 : Fin 2) r) := by
  unfold refOut
  rw [mulf_apply, gather0_apply b k x q hq, gather1_apply b k x r hr]

end Cert.ReferenceIdeal.HostValue

end
-- ==== Proof.Bridge.lean ====
/-
  The reference's result is the flattened outer product.

  At (b, k) the reference is x(b, 0, k / 64) · x(b, 1, k % 64) (its two gathers read through its index tables), which is
  the specification's entry (b, k) as it stands: the same two factors in the same order.
-/
import proofs.«163718_j85203561218828_2_alg».proof.Proof.RefValue
import proofs.«163718_j85203561218828_2_alg».proof.Proof.Spec

noncomputable section

namespace Cert.ReferenceIdeal.HostValue

open Cert.ReferenceIdeal Cert.ReferenceIdeal.HostRun Cert.Outer Idealize.ShloMosaic Idealize.ShloMosaic.ValueIdx

/-- THE REFERENCE'S RESULT TERM, at the exact instance, is the outer product of its argument. -/
theorem refOut_eq_outer (x : FVec Ideal S32768x2x64 .f32) : refOut (F := Ideal) x = outer (n := 32768) x := by
  funext j
  obtain ⟨b, k, rfl⟩ : ∃ (b : Fin 32768) (k : Fin 4096), j = ix2 b k := ⟨j 0, j 1, eq_ix2 j⟩
  rw [outer_ix2, refOut_apply b k x ⟨k.val / 64, by have := k.isLt; omega⟩ ⟨k.val % 64, Nat.mod_lt _ (by decide)⟩ rfl rfl]
  rfl

end Cert.ReferenceIdeal.HostValue

end
-- ==== Proof.lean ====
/-
  The kernel computes, per sample, the outer product of two 64-element membership vectors, flattened to 4096 entries:
  out(b, 64·j1 + j2) = x(b, 0, j1) · x(b, 1, j2). The reference computes the same entries by two gathers of x at constant
  index tables that enumerate the pairs (j1, j2) in the order k = 64·j1 + j2, and one product. On the extended reals both
  are one product of the same two factors in the same order, so the two results are equal entry by entry with no law of
  arithmetic and no use of the inputs' finiteness.

  Kernel side: the block after the body is the outer product of the block's two rows (Proof/KernelBody.lean: 32 column
  tiles, each two scaled copies of row 1 side by side); the 32 blocks of 1024 samples cover the array, so the result array
  is the outer product of the argument (Proof/KernelValue.lean). Reference side: the host line run and read back
  (Proof/RefRun.lean), the gathers and the index columns read at an index (Proof/RefValue.lean), the two tables read
  as quotient and remainder by 64 (Proof/Tables.lean), and the result term identified with the specification
  (Proof/Bridge.lean, Proof/Spec.lean). The frames of the two kernel programs are the generated ones; the reference's
  frame is its run with the result dropped; the idealization rewrote no operation, so the preservation claim is empty.
-/
import proofs.«163718_j85203561218828_2_alg».proof.Defs
import proofs.«163718_j85203561218828_2_alg».proof.Proof.Gen.Kernel
import proofs.«163718_j85203561218828_2_alg».proof.Proof.Gen.Kernel.Skeleton
import proofs.«163718_j85203561218828_2_alg».proof.Proof.Gen.Kernel.Launch
import proofs.«163718_j85203561218828_2_alg».proof.Proof.Gen.Kernel.Points
import proofs.«163718_j85203561218828_2_alg».proof.Proof.Gen.Kernel.Frame
import proofs.«163718_j85203561218828_2_alg».proof.Proof.Gen.KernelIdeal
import proofs.«163718_j85203561218828_2_alg».proof.Proof.Gen.KernelIdeal.Skeleton
import proofs.«163718_j85203561218828_2_alg».proof.Proof.Gen.KernelIdeal.Launch
import proofs.«163718_j85203561218828_2_alg».proof.Proof.Gen.KernelIdeal.Points
import proofs.«163718_j85203561218828_2_alg».proof.Proof.Gen.KernelIdeal.Frame
import proofs.«163718_j85203561218828_2_alg».proof.Proof.Gen.KernelIdeal.Value
import proofs.«163718_j85203561218828_2_alg».proof.Proof.Gen.ReferenceIdeal
import proofs.«163718_j85203561218828_2_alg».proof.Proof.Gen.Pre_finite_inputs
import proofs.«163718_j85203561218828_2_alg».proof.Proof.KernelValue
import proofs.«163718_j85203561218828_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument unchanged: its run, the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote nothing. -/
theorem preserves : Cert.preserves_Kernel_KernelIdeal := trivial

/-- From memories that agree on the argument both programs end with the outer product of the argument in their result. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HostRun.run (F := Ideal) m' ρ')
  rw [hagree c]
  exact Cert.ReferenceIdeal.HostValue.refOut_eq_outer _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
